-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S8192x8192 : Shape := ⟨2, ![8192, 8192]⟩
abbrev S524288 : Shape := ⟨1, ![524288]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S32x8192 .f32) (main_arg1 : IVec S8192x8192 32) (main_arg2 : FVec F S524288 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  main_v8
-- ==== Kernel.lean ====
abbrev S32x8192 : Shape := ⟨2, ![32, 8192]⟩
abbrev S8192x8192 : Shape := ⟨2, ![8192, 8192]⟩
abbrev S524288 : Shape := ⟨1, ![524288]⟩
abbrev S8192x64 : Shape := ⟨2, ![8192, 64]⟩
abbrev S512x8192 : Shape := ⟨2, ![512, 8192]⟩
abbrev S512x64 : Shape := ⟨2, ![512, 64]⟩
abbrev S32x512 : Shape := ⟨2, ![32, 512]⟩
abbrev S512x2048 : Shape := ⟨2, ![512, 2048]⟩
abbrev S512x128 : Shape := ⟨2, ![512, 128]⟩
abbrev S512x1 : Shape := ⟨2, ![512, 1]⟩
abbrev S32x2048 : Shape := ⟨2, ![32, 2048]⟩

abbrev nBuf : Space → Nat
  | .hbm => 6
  | .vmem => 9
  | .smem => 0
  | _ => 0

abbrev bufTy : (tb : Table) → Fin (tcTables nBuf tb) → BufTy
  | .hbm, ⟨0, _⟩ => ⟨S32x8192, .f32⟩
  | .hbm, ⟨1, _⟩ => ⟨S8192x8192, .i32⟩
  | .hbm, ⟨2, _⟩ => ⟨S524288, .f32⟩
  | .hbm, ⟨3, _⟩ => ⟨S8192x64, .f32⟩
  | .hbm, ⟨4, _⟩ => ⟨S32x8192, .bf16⟩
  | .hbm, ⟨5, _⟩ => ⟨S32x8192, .f32⟩
  | .local _ .vmem, ⟨0, _⟩ => ⟨S32x8192, .bf16⟩
  | .local _ .vmem, ⟨1, _⟩ => ⟨S512x8192, .i32⟩
  | .local _ .vmem, ⟨2, _⟩ => ⟨S512x8192, .i32⟩
  | .local _ .vmem, ⟨3, _⟩ => ⟨S512x64, .f32⟩
  | .local _ .vmem, ⟨4, _⟩ => ⟨S512x64, .f32⟩
  | .local _ .vmem, ⟨5, _⟩ => ⟨S32x512, .f32⟩
  | .local _ .vmem, ⟨6, _⟩ => ⟨S32x512, .f32⟩
  | .local _ .vmem, ⟨7, _⟩ => ⟨S512x2048, .bf16⟩
  | .local _ .vmem, ⟨8, _⟩ => ⟨S32x512, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S524288_S8192x64 : S524288.ShapeCasts S8192x64
  bitsLt_bf16_f32 : FTy.bits .bf16 < FTy.bits .f32
  inb_S512x8192_S512x128_0_0 : ∀ a, (![0, 0] : Fin 2 → Nat) a + S512x128.size a ≤ S512x8192.size a
  h_S512x128 : 0 < S512x128.numel
  inb_S512x64_S512x1_0_0 : ∀ a, (![0, 0] : Fin 2 → Nat) a + S512x1.size a ≤ S512x64.size a
  h_S512x1 : 0 < S512x1.numel
  shapeCasts_S512x1_S512x1 : S512x1.ShapeCasts S512x1
  broadcasts_S512x1_S512x128 : S512x1.Broadcasts S512x128
  inb_S512x2048_S512x128_0_0 : ∀ a, (![0, 0] : Fin 2 → Nat) a + S512x128.size a ≤ S512x2048.size a
  shapeCasts_S512x128_S512x128 : S512x128.ShapeCasts S512x128
  packedbf16_S512x2048_S512x128_0_0 : (Rect.unit (s := S512x2048) ![0, 0] S512x128.size inb_S512x2048_S512x128_0_0).PackedRows (EltTy.packing .bf16)
  inb_S512x8192_S512x128_0_128 : ∀ a, (![0, 128] : Fin 2 → Nat) a + S512x128.size a ≤ S512x8192.size a
  inb_S512x64_S512x1_0_1 : ∀ a, (![0, 1] : Fin 2 → Nat) a + S512x1.size a ≤ S512x64.size a
  inb_S512x2048_S512x128_0_128 : ∀ a, (![0, 128] : Fin 2 → Nat) a + S512x128.size a ≤ S512x2048.size a
  packedbf16_S512x2048_S512x128_0_128 : (Rect.unit (s := S512x2048) ![0, 128] S512x128.size inb_S512x2048_S512x128_0_128).PackedRows (EltTy.packing .bf16)
  inb_S512x8192_S512x128_0_256 : ∀ a, (![0, 256] : Fin 2 → Nat) a + S512x128.size a ≤ S512x8192.size a
  inb_S512x64_S512x1_0_2 : ∀ a, (![0, 2] : Fin 2 → Nat) a + S512x1.size a ≤ S512x64.size a
  inb_S512x2048_S512x128_0_256 : ∀ a, (![0, 256] : Fin 2 → Nat) a + S512x128.size a ≤ S512x2048.size a
  packedbf16_S512x2048_S512x128_0_256 : (Rect.unit (s := S512x2048) ![0, 256] S512x128.size inb_S512x2048_S512x128_0_256).PackedRows (EltTy.packing .bf16)
  inb_S512x8192_S512x128_0_384 : ∀ a, (![0, 384] : Fin 2 → Nat) a + S512x128.size a ≤ S512x8192.size a
  inb_S512x64_S512x1_0_3 : ∀ a, (![0, 3] : Fin 2 → Nat) a + S512x1.size a ≤ S512x64.size a
  inb_S512x2048_S512x128_0_384 : ∀ a, (![0, 384] : Fin 2 → Nat) a + S512x128.size a ≤ S512x2048.size a
  packedbf16_S512x2048_S512x128_0_384 : (Rect.unit (s := S512x2048) ![0, 384] S512x128.size inb_S512x2048_S512x128_0_384).PackedRows (EltTy.packing .bf16)
  inb_S512x8192_S512x128_0_512 : ∀ a, (![0, 512] : Fin 2 → Nat) a + S512x128.size a ≤ S512x8192.size a
  inb_S512x64_S512x1_0_4 : ∀ a, (![0, 4] : Fin 2 → Nat) a + S512x1.size a ≤ S512x64.size a
  inb_S512x2048_S512x128_0_512 : ∀ a, (![0, 512] : Fin 2 → Nat) a + S512x128.size a ≤ S512x2048.size a
  packedbf16_S512x2048_S512x128_0_512 : (Rect.unit (s := S512x2048) ![0, 512] S512x128.size inb_S512x2048_S512x128_0_512).PackedRows (EltTy.packing .bf16)
  inb_S512x8192_S512x128_0_640 : ∀ a, (![0, 640] : Fin 2 → Nat) a + S512x128.size a ≤ S512x8192.size a
  inb_S512x64_S512x1_0_5 : ∀ a, (![0, 5] : Fin 2 → Nat) a + S512x1.size a ≤ S512x64.size a
  inb_S512x2048_S512x128_0_640 : ∀ a, (![0, 640] : Fin 2 → Nat) a + S512x128.size a ≤ S512x2048.size a
  packedbf16_S512x2048_S512x128_0_640 : (Rect.unit (s := S512x2048) ![0, 640] S512x128.size inb_S512x2048_S512x128_0_640).PackedRows (EltTy.packing .bf16)
  inb_S512x8192_S512x128_0_768 : ∀ a, (![0, 768] : Fin 2 → Nat) a + S512x128.size a ≤ S512x8192.size a
  inb_S512x64_S512x1_0_6 : ∀ a, (![0, 6] : Fin 2 → Nat) a + S512x1.size a ≤ S512x64.size a
  inb_S512x2048_S512x128_0_768 : ∀ a, (![0, 768] : Fin 2 → Nat) a + S512x128.size a ≤ S512x2048.size a
  packedbf16_S512x2048_S512x128_0_768 : (Rect.unit (s := S512x2048) ![0, 768] S512x128.size inb_S512x2048_S512x128_0_768).PackedRows (EltTy.packing .bf16)
  inb_S512x8192_S512x128_0_896 : ∀ a, (![0, 896] : Fin 2 → Nat) a + S512x128.size a ≤ S512x8192.size a
  inb_S512x64_S512x1_0_7 : ∀ a, (![0, 7] : Fin 2 → Nat) a + S512x1.size a ≤ S512x64.size a
  inb_S512x2048_S512x128_0_896 : ∀ a, (![0, 896] : Fin 2 → Nat) a + S512x128.size a ≤ S512x2048.size a
  packedbf16_S512x2048_S512x128_0_896 : (Rect.unit (s := S512x2048) ![0, 896] S512x128.size inb_S512x2048_S512x128_0_896).PackedRows (EltTy.packing .bf16)
  inb_S512x8192_S512x128_0_1024 : ∀ a, (![0, 1024] : Fin 2 → Nat) a + S512x128.size a ≤ S512x8192.size a
  inb_S512x64_S512x1_0_8 : ∀ a, (![0, 8] : Fin 2 → Nat) a + S512x1.size a ≤ S512x64.size a
  inb_S512x2048_S512x128_0_1024 : ∀ a, (![0, 1024] : Fin 2 → Nat) a + S512x128.size a ≤ S512x2048.size a
  packedbf16_S512x2048_S512x128_0_1024 : (Rect.unit (s := S512x2048) ![0, 1024] S512x128.size inb_S512x2048_S512x128_0_1024).PackedRows (EltTy.packing .bf16)
  inb_S512x8192_S512x128_0_1152 : ∀ a, (![0, 1152] : Fin 2 → Nat) a + S512x128.size a ≤ S512x8192.size a
  inb_S512x64_S512x1_0_9 : ∀ a, (![0, 9] : Fin 2 → Nat) a + S512x1.size a ≤ S512x64.size a
  inb_S512x2048_S512x128_0_1152 : ∀ a, (![0, 1152] : Fin 2 → Nat) a + S512x128.size a ≤ S512x2048.size a
  packedbf16_S512x2048_S512x128_0_1152 : (Rect.unit (s := S512x2048) ![0, 1152] S512x128.size inb_S512x2048_S512x128_0_1152).PackedRows (EltTy.packing .bf16)
  inb_S512x8192_S512x128_0_1280 : ∀ a, (![0, 1280] : Fin 2 → Nat) a + S512x128.size a ≤ S512x8192.size a
  inb_S512x64_S512x1_0_10 : ∀ a, (![0, 10] : Fin 2 → Nat) a + S512x1.size a ≤ S512x64.size a
  inb_S512x2048_S512x128_0_1280 : ∀ a, (![0, 1280] : Fin 2 → Nat) a + S512x128.size a ≤ S512x2048.size a
  packedbf16_S512x2048_S512x128_0_1280 : (Rect.unit (s := S512x2048) ![0, 1280] S512x128.size inb_S512x2048_S512x128_0_1280).PackedRows (EltTy.packing .bf16)
  inb_S512x8192_S512x128_0_1408 : ∀ a, (![0, 1408] : Fin 2 → Nat) a + S512x128.size a ≤ S512x8192.size a
  inb_S512x64_S512x1_0_11 : ∀ a, (![0, 11] : Fin 2 → Nat) a + S512x1.size a ≤ S512x64.size a
  inb_S512x2048_S512x128_0_1408 : ∀ a, (![0, 1408] : Fin 2 → Nat) a + S512x128.size a ≤ S512x2048.size a
  packedbf16_S512x2048_S512x128_0_1408 : (Rect.unit (s := S512x2048) ![0, 1408] S512x128.size inb_S512x2048_S512x128_0_1408).PackedRows (EltTy.packing .bf16)
  inb_S512x8192_S512x128_0_1536 : ∀ a, (![0, 1536] : Fin 2 → Nat) a + S512x128.size a ≤ S512x8192.size a
  inb_S512x64_S512x1_0_12 : ∀ a, (![0, 12] : Fin 2 → Nat) a + S512x1.size a ≤ S512x64.size a
  inb_S512x2048_S512x128_0_1536 : ∀ a, (![0, 1536] : Fin 2 → Nat) a + S512x128.size a ≤ S512x2048.size a
  packedbf16_S512x2048_S512x128_0_1536 : (Rect.unit (s := S512x2048) ![0, 1536] S512x128.size inb_S512x2048_S512x128_0_1536).PackedRows (EltTy.packing .bf16)
  inb_S512x8192_S512x128_0_1664 : ∀ a, (![0, 1664] : Fin 2 → Nat) a + S512x128.size a ≤ S512x8192.size a
  inb_S512x64_S512x1_0_13 : ∀ a, (![0, 13] : Fin 2 → Nat) a + S512x1.size a ≤ S512x64.size a
  inb_S512x2048_S512x128_0_1664 : ∀ a, (![0, 1664] : Fin 2 → Nat) a + S512x128.size a ≤ S512x2048.size a
  packedbf16_S512x2048_S512x128_0_1664 : (Rect.unit (s := S512x2048) ![0, 1664] S512x128.size inb_S512x2048_S512x128_0_1664).PackedRows (EltTy.packing .bf16)
  inb_S512x8192_S512x128_0_1792 : ∀ a, (![0, 1792] : Fin 2 → Nat) a + S512x128.size a ≤ S512x8192.size a
  inb_S512x64_S512x1_0_14 : ∀ a, (![0, 14] : Fin 2 → Nat) a + S512x1.size a ≤ S512x64.size a
  inb_S512x2048_S512x128_0_1792 : ∀ a, (![0, 1792] : Fin 2 → Nat) a + S512x128.size a ≤ S512x2048.size a
  packedbf16_S512x2048_S512x128_0_1792 : (Rect.unit (s := S512x2048) ![0, 1792] S512x128.size inb_S512x2048_S512x128_0_1792).PackedRows (EltTy.packing .bf16)
  inb_S512x8192_S512x128_0_1920 : ∀ a, (![0, 1920] : Fin 2 → Nat) a + S512x128.size a ≤ S512x8192.size a
  inb_S512x64_S512x1_0_15 : ∀ a, (![0, 15] : Fin 2 → Nat) a + S512x1.size a ≤ S512x64.size a
  inb_S512x2048_S512x128_0_1920 : ∀ a, (![0, 1920] : Fin 2 → Nat) a + S512x128.size a ≤ S512x2048.size a
  packedbf16_S512x2048_S512x128_0_1920 : (Rect.unit (s := S512x2048) ![0, 1920] S512x128.size inb_S512x2048_S512x128_0_1920).PackedRows (EltTy.packing .bf16)
  inb_S32x8192_S32x2048_0_0 : ∀ a, (![0, 0] : Fin 2 → Nat) a + S32x2048.size a ≤ S32x8192.size a
  h_S32x2048 : 0 < S32x2048.numel
  shapeCasts_S32x2048_S32x2048 : S32x2048.ShapeCasts S32x2048
  inb_S512x2048_S512x2048_0_0 : ∀ a, (![0, 0] : Fin 2 → Nat) a + S512x2048.size a ≤ S512x2048.size a
  h_S512x2048 : 0 < S512x2048.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S512x8192_S512x128_0_2048 : ∀ a, (![0, 2048] : Fin 2 → Nat) a + S512x128.size a ≤ S512x8192.size a
  inb_S512x64_S512x1_0_16 : ∀ a, (![0, 16] : Fin 2 → Nat) a + S512x1.size a ≤ S512x64.size a
  inb_S512x8192_S512x128_0_2176 : ∀ a, (![0, 2176] : Fin 2 → Nat) a + S512x128.size a ≤ S512x8192.size a
  inb_S512x64_S512x1_0_17 : ∀ a, (![0, 17] : Fin 2 → Nat) a + S512x1.size a ≤ S512x64.size a
  inb_S512x8192_S512x128_0_2304 : ∀ a, (![0, 2304] : Fin 2 → Nat) a + S512x128.size a ≤ S512x8192.size a
  inb_S512x64_S512x1_0_18 : ∀ a, (![0, 18] : Fin 2 → Nat) a + S512x1.size a ≤ S512x64.size a
  inb_S512x8192_S512x128_0_2432 : ∀ a, (![0, 2432] : Fin 2 → Nat) a + S512x128.size a ≤ S512x8192.size a
  inb_S512x64_S512x1_0_19 : ∀ a, (![0, 19] : Fin 2 → Nat) a + S512x1.size a ≤ S512x64.size a
  inb_S512x8192_S512x128_0_2560 : ∀ a, (![0, 2560] : Fin 2 → Nat) a + S512x128.size a ≤ S512x8192.size a
  inb_S512x64_S512x1_0_20 : ∀ a, (![0, 20] : Fin 2 → Nat) a + S512x1.size a ≤ S512x64.size a
  inb_S512x8192_S512x128_0_2688 : ∀ a, (![0, 2688] : Fin 2 → Nat) a + S512x128.size a ≤ S512x8192.size a
  inb_S512x64_S512x1_0_21 : ∀ a, (![0, 21] : Fin 2 → Nat) a + S512x1.size a ≤ S512x64.size a
  inb_S512x8192_S512x128_0_2816 : ∀ a, (![0, 2816] : Fin 2 → Nat) a + S512x128.size a ≤ S512x8192.size a
  inb_S512x64_S512x1_0_22 : ∀ a, (![0, 22] : Fin 2 → Nat) a + S512x1.size a ≤ S512x64.size a
  inb_S512x8192_S512x128_0_2944 : ∀ a, (![0, 2944] : Fin 2 → Nat) a + S512x128.size a ≤ S512x8192.size a
  inb_S512x64_S512x1_0_23 : ∀ a, (![0, 23] : Fin 2 → Nat) a + S512x1.size a ≤ S512x64.size a
  inb_S512x8192_S512x128_0_3072 : ∀ a, (![0, 3072] : Fin 2 → Nat) a + S512x128.size a ≤ S512x8192.size a
  inb_S512x64_S512x1_0_24 : ∀ a, (![0, 24] : Fin 2 → Nat) a + S512x1.size a ≤ S512x64.size a
  inb_S512x8192_S512x128_0_3200 : ∀ a, (![0, 3200] : Fin 2 → Nat) a + S512x128.size a ≤ S512x8192.size a
  inb_S512x64_S512x1_0_25 : ∀ a, (![0, 25] : Fin 2 → Nat) a + S512x1.size a ≤ S512x64.size a
  inb_S512x8192_S512x128_0_3328 : ∀ a, (![0, 3328] : Fin 2 → Nat) a + S512x128.size a ≤ S512x8192.size a
  inb_S512x64_S512x1_0_26 : ∀ a, (![0, 26] : Fin 2 → Nat) a + S512x1.size a ≤ S512x64.size a
  inb_S512x8192_S512x128_0_3456 : ∀ a, (![0, 3456] : Fin 2 → Nat) a + S512x128.size a ≤ S512x8192.size a
  inb_S512x64_S512x1_0_27 : ∀ a, (![0, 27] : Fin 2 → Nat) a + S512x1.size a ≤ S512x64.size a
  inb_S512x8192_S512x128_0_3584 : ∀ a, (![0, 3584] : Fin 2 → Nat) a + S512x128.size a ≤ S512x8192.size a
  inb_S512x64_S512x1_0_28 : ∀ a, (![0, 28] : Fin 2 → Nat) a + S512x1.size a ≤ S512x64.size a
  inb_S512x8192_S512x128_0_3712 : ∀ a, (![0, 3712] : Fin 2 → Nat) a + S512x128.size a ≤ S512x8192.size a
  inb_S512x64_S512x1_0_29 : ∀ a, (![0, 29] : Fin 2 → Nat) a + S512x1.size a ≤ S512x64.size a
  inb_S512x8192_S512x128_0_3840 : ∀ a, (![0, 3840] : Fin 2 → Nat) a + S512x128.size a ≤ S512x8192.size a
  inb_S512x64_S512x1_0_30 : ∀ a, (![0, 30] : Fin 2 → Nat) a + S512x1.size a ≤ S512x64.size a
  inb_S512x8192_S512x128_0_3968 : ∀ a, (![0, 3968] : Fin 2 → Nat) a + S512x128.size a ≤ S512x8192.size a
  inb_S512x64_S512x1_0_31 : ∀ a, (![0, 31] : Fin 2 → Nat) a + S512x1.size a ≤ S512x64.size a
  inb_S32x8192_S32x2048_0_2048 : ∀ a, (![0, 2048] : Fin 2 → Nat) a + S32x2048.size a ≤ S32x8192.size a
  inb_S512x8192_S512x128_0_4096 : ∀ a, (![0, 4096] : Fin 2 → Nat) a + S512x128.size a ≤ S512x8192.size a
  inb_S512x64_S512x1_0_32 : ∀ a, (![0, 32] : Fin 2 → Nat) a + S512x1.size a ≤ S512x64.size a
  inb_S512x8192_S512x128_0_4224 : ∀ a, (![0, 4224] : Fin 2 → Nat) a + S512x128.size a ≤ S512x8192.size a
  inb_S512x64_S512x1_0_33 : ∀ a, (![0, 33] : Fin 2 → Nat) a + S512x1.size a ≤ S512x64.size a
  inb_S512x8192_S512x128_0_4352 : ∀ a, (![0, 4352] : Fin 2 → Nat) a + S512x128.size a ≤ S512x8192.size a
  inb_S512x64_S512x1_0_34 : ∀ a, (![0, 34] : Fin 2 → Nat) a + S512x1.size a ≤ S512x64.size a
  inb_S512x8192_S512x128_0_4480 : ∀ a, (![0, 4480] : Fin 2 → Nat) a + S512x128.size a ≤ S512x8192.size a
  inb_S512x64_S512x1_0_35 : ∀ a, (![0, 35] : Fin 2 → Nat) a + S512x1.size a ≤ S512x64.size a
  inb_S512x8192_S512x128_0_4608 : ∀ a, (![0, 4608] : Fin 2 → Nat) a + S512x128.size a ≤ S512x8192.size a
  inb_S512x64_S512x1_0_36 : ∀ a, (![0, 36] : Fin 2 → Nat) a + S512x1.size a ≤ S512x64.size a
  inb_S512x8192_S512x128_0_4736 : ∀ a, (![0, 4736] : Fin 2 → Nat) a + S512x128.size a ≤ S512x8192.size a
  inb_S512x64_S512x1_0_37 : ∀ a, (![0, 37] : Fin 2 → Nat) a + S512x1.size a ≤ S512x64.size a
  inb_S512x8192_S512x128_0_4864 : ∀ a, (![0, 4864] : Fin 2 → Nat) a + S512x128.size a ≤ S512x8192.size a
  inb_S512x64_S512x1_0_38 : ∀ a, (![0, 38] : Fin 2 → Nat) a + S512x1.size a ≤ S512x64.size a
  inb_S512x8192_S512x128_0_4992 : ∀ a, (![0, 4992] : Fin 2 → Nat) a + S512x128.size a ≤ S512x8192.size a
  inb_S512x64_S512x1_0_39 : ∀ a, (![0, 39] : Fin 2 → Nat) a + S512x1.size a ≤ S512x64.size a
  inb_S512x8192_S512x128_0_5120 : ∀ a, (![0, 5120] : Fin 2 → Nat) a + S512x128.size a ≤ S512x8192.size a
  inb_S512x64_S512x1_0_40 : ∀ a, (![0, 40] : Fin 2 → Nat) a + S512x1.size a ≤ S512x64.size a
  inb_S512x8192_S512x128_0_5248 : ∀ a, (![0, 5248] : Fin 2 → Nat) a + S512x128.size a ≤ S512x8192.size a
  inb_S512x64_S512x1_0_41 : ∀ a, (![0, 41] : Fin 2 → Nat) a + S512x1.size a ≤ S512x64.size a
  inb_S512x8192_S512x128_0_5376 : ∀ a, (![0, 5376] : Fin 2 → Nat) a + S512x128.size a ≤ S512x8192.size a
  inb_S512x64_S512x1_0_42 : ∀ a, (![0, 42] : Fin 2 → Nat) a + S512x1.size a ≤ S512x64.size a
  inb_S512x8192_S512x128_0_5504 : ∀ a, (![0, 5504] : Fin 2 → Nat) a + S512x128.size a ≤ S512x8192.size a
  inb_S512x64_S512x1_0_43 : ∀ a, (![0, 43] : Fin 2 → Nat) a + S512x1.size a ≤ S512x64.size a
  inb_S512x8192_S512x128_0_5632 : ∀ a, (![0, 5632] : Fin 2 → Nat) a + S512x128.size a ≤ S512x8192.size a
  inb_S512x64_S512x1_0_44 : ∀ a, (![0, 44] : Fin 2 → Nat) a + S512x1.size a ≤ S512x64.size a
  inb_S512x8192_S512x128_0_5760 : ∀ a, (![0, 5760] : Fin 2 → Nat) a + S512x128.size a ≤ S512x8192.size a
  inb_S512x64_S512x1_0_45 : ∀ a, (![0, 45] : Fin 2 → Nat) a + S512x1.size a ≤ S512x64.size a
  inb_S512x8192_S512x128_0_5888 : ∀ a, (![0, 5888] : Fin 2 → Nat) a + S512x128.size a ≤ S512x8192.size a
  inb_S512x64_S512x1_0_46 : ∀ a, (![0, 46] : Fin 2 → Nat) a + S512x1.size a ≤ S512x64.size a
  inb_S512x8192_S512x128_0_6016 : ∀ a, (![0, 6016] : Fin 2 → Nat) a + S512x128.size a ≤ S512x8192.size a
  inb_S512x64_S512x1_0_47 : ∀ a, (![0, 47] : Fin 2 → Nat) a + S512x1.size a ≤ S512x64.size a
  inb_S32x8192_S32x2048_0_4096 : ∀ a, (![0, 4096] : Fin 2 → Nat) a + S32x2048.size a ≤ S32x8192.size a
  inb_S512x8192_S512x128_0_6144 : ∀ a, (![0, 6144] : Fin 2 → Nat) a + S512x128.size a ≤ S512x8192.size a
  inb_S512x64_S512x1_0_48 : ∀ a, (![0, 48] : Fin 2 → Nat) a + S512x1.size a ≤ S512x64.size a
  inb_S512x8192_S512x128_0_6272 : ∀ a, (![0, 6272] : Fin 2 → Nat) a + S512x128.size a ≤ S512x8192.size a
  inb_S512x64_S512x1_0_49 : ∀ a, (![0, 49] : Fin 2 → Nat) a + S512x1.size a ≤ S512x64.size a
  inb_S512x8192_S512x128_0_6400 : ∀ a, (![0, 6400] : Fin 2 → Nat) a + S512x128.size a ≤ S512x8192.size a
  inb_S512x64_S512x1_0_50 : ∀ a, (![0, 50] : Fin 2 → Nat) a + S512x1.size a ≤ S512x64.size a
  inb_S512x8192_S512x128_0_6528 : ∀ a, (![0, 6528] : Fin 2 → Nat) a + S512x128.size a ≤ S512x8192.size a
  inb_S512x64_S512x1_0_51 : ∀ a, (![0, 51] : Fin 2 → Nat) a + S512x1.size a ≤ S512x64.size a
  inb_S512x8192_S512x128_0_6656 : ∀ a, (![0, 6656] : Fin 2 → Nat) a + S512x128.size a ≤ S512x8192.size a
  inb_S512x64_S512x1_0_52 : ∀ a, (![0, 52] : Fin 2 → Nat) a + S512x1.size a ≤ S512x64.size a
  inb_S512x8192_S512x128_0_6784 : ∀ a, (![0, 6784] : Fin 2 → Nat) a + S512x128.size a ≤ S512x8192.size a
  inb_S512x64_S512x1_0_53 : ∀ a, (![0, 53] : Fin 2 → Nat) a + S512x1.size a ≤ S512x64.size a
  inb_S512x8192_S512x128_0_6912 : ∀ a, (![0, 6912] : Fin 2 → Nat) a + S512x128.size a ≤ S512x8192.size a
  inb_S512x64_S512x1_0_54 : ∀ a, (![0, 54] : Fin 2 → Nat) a + S512x1.size a ≤ S512x64.size a
  inb_S512x8192_S512x128_0_7040 : ∀ a, (![0, 7040] : Fin 2 → Nat) a + S512x128.size a ≤ S512x8192.size a
  inb_S512x64_S512x1_0_55 : ∀ a, (![0, 55] : Fin 2 → Nat) a + S512x1.size a ≤ S512x64.size a
  inb_S512x8192_S512x128_0_7168 : ∀ a, (![0, 7168] : Fin 2 → Nat) a + S512x128.size a ≤ S512x8192.size a
  inb_S512x64_S512x1_0_56 : ∀ a, (![0, 56] : Fin 2 → Nat) a + S512x1.size a ≤ S512x64.size a
  inb_S512x8192_S512x128_0_7296 : ∀ a, (![0, 7296] : Fin 2 → Nat) a + S512x128.size a ≤ S512x8192.size a
  inb_S512x64_S512x1_0_57 : ∀ a, (![0, 57] : Fin 2 → Nat) a + S512x1.size a ≤ S512x64.size a
  inb_S512x8192_S512x128_0_7424 : ∀ a, (![0, 7424] : Fin 2 → Nat) a + S512x128.size a ≤ S512x8192.size a
  inb_S512x64_S512x1_0_58 : ∀ a, (![0, 58] : Fin 2 → Nat) a + S512x1.size a ≤ S512x64.size a
  inb_S512x8192_S512x128_0_7552 : ∀ a, (![0, 7552] : Fin 2 → Nat) a + S512x128.size a ≤ S512x8192.size a
  inb_S512x64_S512x1_0_59 : ∀ a, (![0, 59] : Fin 2 → Nat) a + S512x1.size a ≤ S512x64.size a
  inb_S512x8192_S512x128_0_7680 : ∀ a, (![0, 7680] : Fin 2 → Nat) a + S512x128.size a ≤ S512x8192.size a
  inb_S512x64_S512x1_0_60 : ∀ a, (![0, 60] : Fin 2 → Nat) a + S512x1.size a ≤ S512x64.size a
  inb_S512x8192_S512x128_0_7808 : ∀ a, (![0, 7808] : Fin 2 → Nat) a + S512x128.size a ≤ S512x8192.size a
  inb_S512x64_S512x1_0_61 : ∀ a, (![0, 61] : Fin 2 → Nat) a + S512x1.size a ≤ S512x64.size a
  inb_S512x8192_S512x128_0_7936 : ∀ a, (![0, 7936] : Fin 2 → Nat) a + S512x128.size a ≤ S512x8192.size a
  inb_S512x64_S512x1_0_62 : ∀ a, (![0, 62] : Fin 2 → Nat) a + S512x1.size a ≤ S512x64.size a
  inb_S512x8192_S512x128_0_8064 : ∀ a, (![0, 8064] : Fin 2 → Nat) a + S512x128.size a ≤ S512x8192.size a
  inb_S512x64_S512x1_0_63 : ∀ a, (![0, 63] : Fin 2 → Nat) a + S512x1.size a ≤ S512x64.size a
  inb_S32x8192_S32x2048_0_6144 : ∀ a, (![0, 6144] : Fin 2 → Nat) a + S32x2048.size a ≤ S32x8192.size a
  dot_S32x2048_S512x2048_S32x512_1_1_0_0_n_n_wf : DotDims.WF S32x2048 S512x2048 S32x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .bf16 = 32 ∨ (Rect.block (s := S32x8192) S32x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S8192x8192.size a
  hwx0_1 : ∀ i : grid0.Coords, EltTy.bits .i32 = 32 ∨ (Rect.block (s := S8192x8192) S512x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .f32 = 32 ∨ (Rect.block (s := S8192x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x8192.size a
  hwx0_3 : ∀ i : grid0.Coords, EltTy.bits .f32 = 32 ∨ (Rect.block (s := S32x8192) S32x512.size (cc0_transform_3 i) (hinb0_3 i)).WholeWords (EltTy.packing .f32)

variable [Facts₀]

def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf

abbrev win0_0 : Pipeline.Window sig grid0 :=
  Pipeline.Window.ofSpec (Memref.whole main_v1) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192 : Shape := ⟨2, ![32, 8192]⟩
abbrev S8192x8192 : Shape := ⟨2, ![8192, 8192]⟩
abbrev S524288 : Shape := ⟨1, ![524288]⟩
abbrev S524288x1 : Shape := ⟨2, ![524288, 1]⟩
abbrev S524288x128 : Shape := ⟨2, ![524288, 128]⟩

abbrev nBuf : Space → Nat
  | .hbm => 9
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8192x8192, .i32⟩
  | .hbm, ⟨2, _⟩ => ⟨S524288, .f32⟩
  | .hbm, ⟨3, _⟩ => ⟨S524288x1, .f32⟩
  | .hbm, ⟨4, _⟩ => ⟨S524288x128, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  shapeCasts_S524288x128_S8192x8192 : S524288x128.ShapeCasts S8192x8192
  dot_S32x8192_S8192x8192_S32x8192_1_1_0_0_n_n_wf : DotDims.WF S32x8192 S8192x8192 S32x8192 [1] [1] [0] [0] [] []

variable [Facts₀]

def dot_S32x8192_S8192x8192_S32x8192_1_1_0_0_n_n : DotDims S32x8192 S8192x8192 S32x8192 where
  lhsContracting := [1]
  rhsContracting := [1]
  lhsNonContracting := [0]
  rhsNonContracting := [0]
  lhsBatch := []
  rhsBatch := []
  wf := dot_S32x8192_S8192x8192_S32x8192_1_1_0_0_n_n_wf

class Facts : Prop extends Facts₀ where

variable [Facts]
-- ==== Proof.Spec.lean ====
/-
  The specification: a linear layer with group-quantized weights.

  `x` is a [32, 8192] matrix of activations, `t` an [8192, 8192] matrix of integer weights (output row `o`, input
  column `k`) and `s` a vector of 524288 scales, one for each run of 128 consecutive weights of the row-major weight
  matrix: weight `(o, k)` is at flat position `o·8192 + k`, so its scale is number `(o·8192 + k) / 128 = o·64 + k / 128`.
  The result at `(r, o)` is `Σ_k x(r, k) · (float(t(o, k)) · s(o·64 + k / 128))`, over the extended reals.
-/
import Idealize.ShloMosaic.PureOps.Ideal
import Idealize.ShloMosaic.Lib.ValueIdx

noncomputable section

namespace Cert.Spec

open Idealize.ShloMosaic Idealize.ShloMosaic.ValueIdx

/-- The number of the scale of weight `(o, k)`. -/
def grp (o k : Fin 8192) : Fin 524288 :=
  ⟨o.val * 64 + k.val / 128, by have := o.isLt; have := k.isLt; omega⟩

/-- The dequantized weight `(o, k)`. -/
def weight (t : Vec Ideal ⟨2, ![8192, 8192]⟩ .i32) (s : Vec Ideal ⟨1, ![524288]⟩ .f32) (o k : Fin 8192) : EReal :=
  FloatOps.sitofp (F := Ideal) .f32 (t (ix2 o k)) * s (ix1 (grp o k))

/-- The layer's result: activations against dequantized weights, contracted over the input columns. -/
def linear (x : Vec Ideal ⟨2, ![32, 8192]⟩ .f32) (t : Vec Ideal ⟨2, ![8192, 8192]⟩ .i32)
    (s : Vec Ideal ⟨1, ![524288]⟩ .f32) : Vec Ideal ⟨2, ![32, 8192]⟩ .f32 :=
  fun i => ∑ k : Fin 8192, x (ix2 (i 0) k) * weight t s (i 1) k

end Cert.Spec

end
-- ==== Proof.RefSpec.lean ====
/-
  The reference computes the specification.

  The reference spreads each scale over a row of 128 copies, reads the [524288, 128] result as an [8192, 8192] matrix in
  row-major order — entry `(o, k)` is copy `(o·8192 + k) mod 128` of scale `(o·8192 + k) / 128` —, multiplies by the
  integer weights converted to floats, and contracts the activations' columns against the product's columns. Entry by
  entry that is the specification's sum, with `(o·8192 + k) / 128 = o·64 + k / 128`.
-/
import proofs.«134464_j15058155339824_2_alg».proof.Proof.Gen.ReferenceIdeal.Read
import proofs.«134464_j15058155339824_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result, as read one operation at a time, is the specification of its arguments. -/
theorem result_eq (x0 : (⟨S32x8192, .f32⟩ : BufTy).Contents (Elt Ideal)) (x1 : (⟨S8192x8192, .i32⟩ : BufTy).Contents (Elt Ideal))
    (x2 : (⟨S524288, .f32⟩ : BufTy).Contents (Elt Ideal)) :
    val_main_v5 (F := Ideal) x0 x1 x2 = Cert.Spec.linear x0 x1 x2 := by
  funext i
  rw [val_main_v5_apply]
  unfold Cert.Spec.linear Cert.Spec.weight
  refine Finset.sum_congr rfl fun k _ => ?_
  rw [val_main_v4_apply, val_main_v3_apply, val_main_v2_apply, val_main_v1_apply, val_main_v0_apply]
  have e1 : lidx_main_v5 i k = ix2 (i 0) k := funext fun a => Fin.ext (by
    match a with
    | ⟨0, _⟩ => rfl
    | ⟨1, _⟩ => rfl)
  have e2 : ridx_main_v5 i k = ix2 (i 1) k := funext fun a => Fin.ext (by
    match a with
    | ⟨0, _⟩ => rfl
    | ⟨1, _⟩ => rfl)
  have e3 : idx_main_v0 (idx_main_v1 (idx_main_v2 (ix2 (i 1) k))) = ix1 (Cert.Spec.grp (i 1) k) :=
    funext fun a => Fin.ext (by
      match a with
      | ⟨0, _⟩ =>
        show ((i 1).val * 8192 + k.val) / 128 = (i 1).val * 64 + k.val / 128
        omega)
  rw [e1, e2, e3]
  rfl

end Cert.ReferenceIdeal.RefValue

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.Body.lean ====
/-
  The kernel body's arithmetic, one value at a time, on the extended reals.

  One grid step holds a block of 512 weight rows. For each of four chunks of 2048 columns it fills a scratch tile
  with the dequantized weights, sixteen slabs of 128 columns at a time: slab `g` of chunk `c` is the integer weights
  of columns `c·2048 + g·128 …` converted to floats and multiplied, row by row, by column `c·16 + g` of the block's
  scales (one scale per row and group of 128 columns). The chunk's partial product contracts the activations' columns
  of the chunk against the scratch tile's columns. The first partial product starts the accumulator, the next three
  are added to it.

  This module names those values independently of how the body's text is cut into pieces:
    * `slab A B`: a slab from its integer columns `A` and its scale column `B`; at `(q, l)` it is
      `float(A(q, l)) · B(q, 0)` (a change of float format is the identity on the extended reals);
    * `tile c T S`: the whole scratch tile of chunk `c` as a function of the block's integers `T` and scales `S`;
    * `first_apply`, `next_apply`: a partial product into a zero accumulator, alone or added to an earlier value, at
      `(p, q)` is `Σ_j A(p, j) · W(q, j)` (plus the earlier value).
-/
import proofs.«134464_j15058155339824_2_alg».proof.Proof.Gen.KernelIdeal.Skeleton
import proofs.«134464_j15058155339824_2_alg».proof.Proof.LibMatmulNT
import Idealize.ShloMosaic.Lib.Pipeline.Value
import Idealize.ShloMosaic.Lib.Pipeline.FrameBody
import Idealize.ShloMosaic.Lib.ValueIdx
import Idealize.ShloMosaic.Lib.Tactic
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.Tactic

/-! ## A slab -/

/-- A dequantized slab of 128 columns from its integer columns and its column of scales. -/
def slab (A : Vec Ideal S512x128 .i32) (B : Vec Ideal S512x1 .f32) : FVec Ideal S512x128 .bf16 :=
  shapeCast S512x128 (truncf .bf16 (mulf (sitofp .f32 A)
    (broadcastTo S512x128 (shapeCast S512x1 B shapeCasts_S512x1_S512x1) broadcasts_S512x1_S512x128)) bitsLt_bf16_f32)
    shapeCasts_S512x128_S512x128

/-- At row `q`, column `l`: the integer as a real times the row's scale. -/
theorem slab_apply (A : Vec Ideal S512x128 .i32) (B : Vec Ideal S512x1 .f32) (q : Fin 512) (l : Fin 128) :
    slab A B (ix2 q l) = FloatOps.sitofp (F := Ideal) .f32 (A (ix2 q l)) * B (ix2 q (0 : Fin 1)) := by
  unfold slab
  rw [shapeCast_self, shapeCast_self]
  show FloatOps.sitofp (F := Ideal) .f32 (A (ix2 q l)) * broadcastTo S512x128 B broadcasts_S512x1_S512x128 (ix2 q l) = _
  rw [broadcastTo_apply B broadcasts_S512x1_S512x128 (ix2 q l) (ix2 q (0 : Fin 1)) (fun a => by
    match a with
    | ⟨0, _⟩ => show q.val = if (512 : Nat) = 1 then 0 else q.val; rw [if_neg (by decide)]
    | ⟨1, _⟩ => show 0 = if (1 : Nat) = 1 then 0 else l.val; rw [if_pos rfl])]

/-- The body's text is cut into pieces by position, so a slab's operations may be spread over two printed definitions
    (and over the names the body's run gives to values passed from one part to the next). This unfolds them all in
    the goal: every slab then shows as the one expression `slab` abbreviates. -/
macro "unfold_slab_payloads" : tactic => `(tactic| (
  sl_unfold_words
  simp only [
    k0_pay1, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay46, k0_pay47, k0_pay48, k0_pay49, k0_pay50, k0_pay51,
    k0_pay52, k0_pay53, k0_pay54, k0_pay55, k0_pay56, k0_pay57, k0_pay58, k0_pay59, k0_pay60, k0_pay61, k0_pay62, k0_pay63,
    k0_pay64, k0_pay65, k0_pay66, k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85, k0_pay86, k0_pay87]))

/-! ## The scratch tile of one chunk -/

/-- Column `j` of chunk `c`'s tile is column `c·2048 + j` of the block's integers … -/
def colT (c : Nat) (j : Fin 2048) : Fin 8192 := ⟨(c * 2048 + j.val) % 8192, Nat.mod_lt _ (by decide)⟩
/-- … scaled by the scale of its group of 128 columns, column `c·16 + j / 128` of the block's scales. -/
def colS (c : Nat) (j : Fin 2048) : Fin 64 := ⟨(c * 16 + j.val / 128) % 64, Nat.mod_lt _ (by decide)⟩

/-- The dequantized weights of chunk `c`: at `(q, j)`, `float(T(q, c·2048 + j)) · S(q, c·16 + j / 128)`. -/
def tile (c : Nat) (T : Vec Ideal S512x8192 .i32) (S : Vec Ideal S512x64 .f32) : Vec Ideal S512x2048 .bf16 :=
  fun y => FloatOps.sitofp (F := Ideal) .f32 (T (ix2 (y 0) (colT c (y 1)))) * S (ix2 (y 0) (colS c (y 1)))

/-- A slab whose integer columns are the block's columns `c·2048 + o …` and whose scales are the block's column
    `c·16 + o / 128` is the tile's columns `o … o + 127`. -/
theorem slab_is_tile (c : Nat) (hc : c < 4) (T : Vec Ideal S512x8192 .i32) (S : Vec Ideal S512x64 .f32)
    (A : Vec Ideal S512x128 .i32) (B : Vec Ideal S512x1 .f32) (o : Nat) (inb)
    (hA : ∀ (q : Fin 512) (l : Fin 128) (k : Fin 8192), k.val = c * 2048 + o + l.val → A (ix2 q l) = T (ix2 q k))
    (hB : ∀ (q : Fin 512) (g : Fin 64), g.val = c * 16 + o / 128 → B (ix2 q (0 : Fin 1)) = S (ix2 q g))
    (ho : o % 128 = 0) (ho' : o + 128 ≤ 2048) :
    ∀ x : (Rect.unit (s := S512x2048) ![0, o] S512x128.size inb).shape.Idx,
      slab A B x = tile c T S ((Rect.unit (s := S512x2048) ![0, o] S512x128.size inb).emb x) := by
  intro x
  obtain ⟨q, l, rfl⟩ : ∃ (q : Fin 512) (l : Fin 128), x = ix2 q l := ⟨x 0, x 1, eq_ix2 x⟩
  rw [slab_apply]
  unfold tile
  have hl := l.isLt
  have e0 : ((Rect.unit (s := S512x2048) ![0, o] S512x128.size inb).emb (ix2 q l)) 0 = q :=
    Fin.ext (by show 0 + 1 * q.val = q.val; omega)
  have e1 : (((Rect.unit (s := S512x2048) ![0, o] S512x128.size inb).emb (ix2 q l)) 1).val = o + l.val := by
    show o + 1 * l.val = o + l.val; omega
  rw [e0, hA q l (colT c (((Rect.unit (s := S512x2048) ![0, o] S512x128.size inb).emb (ix2 q l)) 1))
      (by show (c * 2048 + (((Rect.unit (s := S512x2048) ![0, o] S512x128.size inb).emb (ix2 q l)) 1).val) % 8192 = _; rw [e1]; omega),
    hB q (colS c (((Rect.unit (s := S512x2048) ![0, o] S512x128.size inb).emb (ix2 q l)) 1))
      (by show (c * 16 + (((Rect.unit (s := S512x2048) ![0, o] S512x128.size inb).emb (ix2 q l)) 1).val / 128) % 64 = _; rw [e1]; omega)]

/-! ## Loads through a rectangle of whole rows -/

/-- Columns `o … o + 127` of the block's integers. -/
theorem ld_T (T : Vec Ideal S512x8192 .i32) (o : Nat) (inb) (q : Fin 512) (l : Fin 128) (k : Fin 8192)
    (hk : k.val = o + l.val) :
    View.ld T (Rect.unit (s := S512x8192) ![0, o] S512x128.size inb) (ix2 q l) = T (ix2 q k) := by
  show T _ = T _
  refine congrArg T (funext fun a => Fin.ext ?_)
  match a with
  | ⟨0, _⟩ => show 0 + 1 * q.val = q.val; omega
  | ⟨1, _⟩ => show o + 1 * l.val = k.val; omega

/-- Column `g` of the block's scales. -/
theorem ld_S (S : Vec Ideal S512x64 .f32) (o : Nat) (inb) (q : Fin 512) (g : Fin 64) (hg : g.val = o) :
    View.ld S (Rect.unit (s := S512x64) ![0, o] S512x1.size inb) (ix2 q (0 : Fin 1)) = S (ix2 q g) := by
  show S _ = S _
  refine congrArg S (funext fun a => Fin.ext ?_)
  match a with
  | ⟨0, _⟩ => show 0 + 1 * q.val = q.val; omega
  | ⟨1, _⟩ => show o + 1 * 0 = g.val; omega

/-- Columns `o … o + 2047` of the activations. -/
theorem ld_X (X : Vec Ideal S32x8192 .bf16) (o : Nat) (inb) (p : Fin 32) (j : Fin 2048) (k : Fin 8192)
    (hk : k.val = o + j.val) :
    View.ld X (Rect.unit (s := S32x8192) ![0, o] S32x2048.size inb) (ix2 p j) = X (ix2 p k) := by
  show X _ = X _
  refine congrArg X (funext fun a => Fin.ext ?_)
  match a with
  | ⟨0, _⟩ => show 0 + 1 * p.val = p.val; omega
  | ⟨1, _⟩ => show o + 1 * j.val = k.val; omega

/-! ## A list of slab stores, read back -/

/-- One step down a list of stores into the scratch tile: if the newest store is a slab of columns `o … o + 127`
    that agrees with `G`, then the contents at `y` are `G y` as soon as they are so under the earlier stores
    whenever `y`'s column is outside the slab. -/
theorem canon_slab_step (G : S512x2048.Idx → Elt Ideal .bf16) (o : Nat) (inb)
    (w : (Rect.unit (s := S512x2048) ![0, o] S512x128.size inb).shape.Idx → Elt Ideal .bf16)
    (L : List (View.Piece (Elt Ideal) S512x2048 .bf16)) (y : S512x2048.Idx)
    (hp : ∀ x, w x = G ((Rect.unit (s := S512x2048) ![0, o] S512x128.size inb).emb x))
    (hL : ¬(o ≤ (y 1).val ∧ (y 1).val < o + 128) → View.canon L y = G y) :
    View.canon ((⟨Rect.unit (s := S512x2048) ![0, o] S512x128.size inb, w⟩ : View.Piece (Elt Ideal) S512x2048 .bf16) :: L) y = G y := by
  by_cases h : o ≤ (y 1).val ∧ (y 1).val < o + 128
  · have hm : y ∈ (Rect.unit (s := S512x2048) ![0, o] S512x128.size inb).set := by
      rw [Rect.mem_set_unit]
      intro a
      match a with
      | ⟨0, _⟩ => exact ⟨Nat.zero_le _, by show (y 0).val < 0 + 512; have := idx2_lt0 y; omega⟩
      | ⟨1, _⟩ => exact ⟨h.1, h.2⟩
    obtain ⟨x, rfl⟩ := (Rect.unit (s := S512x2048) ![0, o] S512x128.size inb).exists_idx_of_mem hm
    rw [show (Rect.unit (s := S512x2048) ![0, o] S512x128.size inb).idx x = (Rect.unit (s := S512x2048) ![0, o] S512x128.size inb).emb x from rfl,
      View.canon_cons_emb]
    exact hp x
  · have hn : y ∉ (Rect.unit (s := S512x2048) ![0, o] S512x128.size inb).set := fun hm => h (by
      have := (Rect.mem_set_unit.mp hm) 1
      exact ⟨this.1, this.2⟩)
    exact (View.canon_cons_of_not_mem (⟨(Rect.unit (s := S512x2048) ![0, o] S512x128.size inb), w⟩ : View.Piece (Elt Ideal) S512x2048 .bf16) L hn).trans (hL h)

/-! ## The partial products -/

/-- The first chunk's partial product, into a zero accumulator: at `(p, q)`, `Σ_j A(p, j) · W(q, j)`. -/
theorem first_apply (A : Vec Ideal S32x2048 .bf16) (W : Vec Ideal S512x2048 .bf16) (p : Fin 32) (q : Fin 512) :
    k0_pay23 A W (ix2 p q) = ∑ j : Fin 2048, A (ix2 p j) * W (ix2 q j) := by
  unfold k0_pay23
  rw [shapeCast_self, shapeCast_self]
  exact Cert.LibMatmulNT.matmul_nt_apply _ rfl rfl rfl rfl rfl rfl none A W p q

/-- A later chunk's partial product added to the accumulator's earlier value. -/
theorem next_apply (A : Vec Ideal S32x2048 .bf16) (W : Vec Ideal S512x2048 .bf16) (acc : Vec Ideal S32x512 .f32)
    (p : Fin 32) (q : Fin 512) :
    k0_pay45 A W acc (ix2 p q) = acc (ix2 p q) + ∑ j : Fin 2048, A (ix2 p j) * W (ix2 q j) := by
  unfold k0_pay45
  rw [shapeCast_self, shapeCast_self]
  show acc (ix2 p q) + _ = _
  exact congrArg (acc (ix2 p q) + ·) (Cert.LibMatmulNT.matmul_nt_apply _ rfl rfl rfl rfl rfl rfl none A W p q)

/-- The third and fourth chunks' steps are the second's. -/
theorem pay67_eq : k0_pay67 (F := Ideal) = k0_pay45 := rfl
theorem pay2_eq : k0_pay2 (F := Ideal) = k0_pay45 := rfl

/-! ## A whole buffer read back, and the body's result -/

theorem hz : (![0, 0] : Fin 2 → Nat) = fun _ => 0 := funext fun a => by fin_cases a <;> rfl

/-- A load of a whole buffer after a list of stores reads what the stores left. -/
theorem readCov_whole {sig : RefSig} {κ : Kind} {sp : Space} {S : Shape} {e : EltTy} (v : View sig κ sp S e)
    (L : List (View.Piece (Elt Ideal) S e)) {off : Fin S.rank → Nat} (h : off = fun _ => 0)
    (inb : ∀ a, off a + S.size a ≤ S.size a) :
    v.readCov L (Rect.unit off S.size inb).toLoadRect = View.canon L :=
  (View.readCov_eq_canon' v L _).trans (View.ld_unit_zero h inb (View.canon L))

/-- Chunk `c`'s partial product of a block: at `(p, q)`, the activations' columns of the chunk against row `q` of the
    chunk's tile. -/
def part (c : Nat) (X : Vec Ideal S32x8192 .bf16) (T : Vec Ideal S512x8192 .i32) (S : Vec Ideal S512x64 .f32) :
    Vec Ideal S32x512 .f32 :=
  fun y => ∑ j : Fin 2048, X (ix2 (y 0) (colT c j)) * tile c T S (ix2 (y 1) j)

/-- What one grid step leaves in its output block: the four partial products, accumulated first to last. -/
def body (X : Vec Ideal S32x8192 .bf16) (T : Vec Ideal S512x8192 .i32) (S : Vec Ideal S512x64 .f32) :
    Vec Ideal S32x512 .f32 :=
  fun y => ((part 0 X T S y + part 1 X T S y) + part 2 X T S y) + part 3 X T S y

end Cert.KernelIdeal.Body

end
-- ==== Proof.Scratch.lean ====
/-
  What the body's run leaves, read back as values.

  The run of the body records, for the scratch tile and for the accumulator, the list of stores made so far (newest
  first), and each later load as a read of that list. Here each such read is identified: the tile a partial product
  reads is `tile c` of the block's integers and scales, because the sixteen newest stores are its sixteen slabs
  and together they hold every column; the accumulator a step reads back is the running sum of the partial products so
  far. The output block ends at `body`: the four partial products accumulated first to last.
-/
import proofs.«134464_j15058155339824_2_alg».proof.Proof.Body
import proofs.«134464_j15058155339824_2_alg».proof.Proof.Gen.KernelIdeal.Frame

set_option maxRecDepth 16384

noncomputable section

namespace Cert.KernelIdeal.Body

open Cert.KernelIdeal Cert.KernelIdeal.Gen Idealize.ShloMosaic Idealize.ShloMosaic.TcCoe Idealize.ShloMosaic.ValueIdx Idealize.ShloMosaic.Tactic

variable (c : Dev nD)
  (arg1 : Memref sig .tc .vmem S32x8192 .bf16) (harg1 : arg1.IsWhole)
  (arg2 : Memref sig .tc .vmem S512x8192 .i32) (harg2 : arg2.IsWhole)
  (arg3 : Memref sig .tc .vmem S512x64 .f32) (harg3 : arg3.IsWhole)
  (arg5 : Memref sig .tc .vmem S512x2048 .bf16) (arg6 : Memref sig .tc .vmem S32x512 .f32)
  (x0 : Vec Ideal S32x8192 .bf16) (x1 : Vec Ideal S512x8192 .i32) (x2 : Vec Ideal S512x64 .f32)

/-! ## The scratch tile, chunk by chunk -/

/-- The scratch tile as the first partial product finds it: sixteen slab stores, the newest first, each the tile's
    columns of its slab; every column is in one of them, so whatever was stored before does not show. -/
theorem scratch_read0 :
    kernelRun0_A.sl.v162 (F := Ideal) c arg2 harg2 arg3 harg3 arg5 x1 x2 = tile 0 x1 x2 := by
  refine (readCov_whole _ _ hz _).trans ?_
  funext y
  have hy := idx2_lt1 y
  iterate 16 (refine canon_slab_step (tile 0 x1 x2) _ _ _ _ y ?_ (fun h => ?_); swap)
  · exfalso; omega
  all_goals (unfold_slab_payloads; refine slab_is_tile 0 (by decide) x1 x2 _ _ _ _ ?_ ?_ ?_ ?_)
  all_goals first
    | decide
    | (intro q l k hk; rw [View.readAt_eq_ld, harg2.read_unread]; exact ld_T x1 _ _ q l k (by omega))
    | (intro q g hg; rw [View.readAt_eq_ld, harg3.read_unread]; exact ld_S x2 _ _ q g (by omega))

/-- The scratch tile as the second partial product finds it: sixteen slab stores, the newest first, each the tile's
    columns of its slab; every column is in one of them, so whatever was stored before does not show. -/
theorem scratch_read1 :
    kernelRun0_A.sl.v329 (F := Ideal) c arg2 harg2 arg3 harg3 arg5 x1 x2 = tile 1 x1 x2 := by
  refine (readCov_whole _ _ hz _).trans ?_
  funext y
  have hy := idx2_lt1 y
  iterate 16 (refine canon_slab_step (tile 1 x1 x2) _ _ _ _ y ?_ (fun h => ?_); swap)
  · exfalso; omega
  all_goals (unfold_slab_payloads; refine slab_is_tile 1 (by decide) x1 x2 _ _ _ _ ?_ ?_ ?_ ?_)
  all_goals first
    | decide
    | (intro q l k hk; rw [View.readAt_eq_ld, harg2.read_unread]; exact ld_T x1 _ _ q l k (by omega))
    | (intro q g hg; rw [View.readAt_eq_ld, harg3.read_unread]; exact ld_S x2 _ _ q g (by omega))

/-- The scratch tile as the third partial product finds it: sixteen slab stores, the newest first, each the tile's
    columns of its slab; every column is in one of them, so whatever was stored before does not show. -/
theorem scratch_read2 :
    kernelRun0_A.sl.v498 (F := Ideal) c arg2 harg2 arg3 harg3 arg5 x1 x2 = tile 2 x1 x2 := by
  refine (readCov_whole _ _ hz _).trans ?_
  funext y
  have hy := idx2_lt1 y
  iterate 16 (refine canon_slab_step (tile 2 x1 x2) _ _ _ _ y ?_ (fun h => ?_); swap)
  · exfalso; omega
  all_goals (unfold_slab_payloads; refine slab_is_tile 2 (by decide) x1 x2 _ _ _ _ ?_ ?_ ?_ ?_)
  all_goals first
    | decide
    | (intro q l k hk; rw [View.readAt_eq_ld, harg2.read_unread]; exact ld_T x1 _ _ q l k (by omega))
    | (intro q g hg; rw [View.readAt_eq_ld, harg3.read_unread]; exact ld_S x2 _ _ q g (by omega))

/-- The scratch tile as the fourth partial product finds it: sixteen slab stores, the newest first, each the tile's
    columns of its slab; every column is in one of them, so whatever was stored before does not show. -/
theorem scratch_read3 :
    kernelRun0_A.sl.v667 (F := Ideal) c arg2 harg2 arg3 harg3 arg5 x1 x2 = tile 3 x1 x2 := by
  refine (readCov_whole _ _ hz _).trans ?_
  funext y
  have hy := idx2_lt1 y
  iterate 16 (refine canon_slab_step (tile 3 x1 x2) _ _ _ _ y ?_ (fun h => ?_); swap)
  · exfalso; omega
  all_goals (unfold_slab_payloads; refine slab_is_tile 3 (by decide) x1 x2 _ _ _ _ ?_ ?_ ?_ ?_)
  all_goals first
    | decide
    | (intro q l k hk; rw [View.readAt_eq_ld, harg2.read_unread]; exact ld_T x1 _ _ q l k (by omega))
    | (intro q g hg; rw [View.readAt_eq_ld, harg3.read_unread]; exact ld_S x2 _ _ q g (by omega))

/-! ## The accumulator, step by step -/

/-- The activations' columns of chunk `c`, as the body loads them. -/
theorem ld_x0 (cc : Nat) (o : Nat) (inb) (ho : o = cc * 2048) (hc : cc < 4) (p : Fin 32) (j : Fin 2048) :
    View.readAt (Elt Ideal) arg1.view (Rect.unit (s := S32x8192) ![0, o] S32x2048.size inb).toLoadRect (harg1.unread x0) (ix2 p j)
      = x0 (ix2 p (colT cc j)) := by
  rw [View.readAt_eq_ld, harg1.read_unread]
  exact ld_X x0 o inb p j (colT cc j) (by have := j.isLt; show (cc * 2048 + j.val) % 8192 = _; omega)

/-- After the first chunk the accumulator holds the first partial product. -/
theorem acc_read1 :
    kernelRun0_A.sl.v331 (F := Ideal) c arg1 harg1 arg2 harg2 arg3 harg3 arg5 arg6 x0 x1 x2 = part 0 x0 x1 x2 := by
  refine (readCov_whole _ _ hz _).trans ?_
  refine (View.canon_unit_zero hz _ _).trans ?_
  funext y
  obtain ⟨p, q, rfl⟩ : ∃ (p : Fin 32) (q : Fin 512), y = ix2 p q := ⟨y 0, y 1, eq_ix2 y⟩
  rw [first_apply, scratch_read0]
  unfold part
  exact Finset.sum_congr rfl fun j _ => congrArg (· * _) (ld_x0 arg1 harg1 x0 0 _ _ rfl (by decide) p j)

/-- After the second chunk: the first two partial products. -/
theorem acc_read2 :
    kernelRun0_A.sl.v500 (F := Ideal) c arg1 harg1 arg2 harg2 arg3 harg3 arg5 arg6 x0 x1 x2
      = fun y => part 0 x0 x1 x2 y + part 1 x0 x1 x2 y := by
  refine (readCov_whole _ _ hz _).trans ?_
  refine (View.canon_cons_unit_zero hz _ _ _).trans ?_
  funext y
  obtain ⟨p, q, rfl⟩ : ∃ (p : Fin 32) (q : Fin 512), y = ix2 p q := ⟨y 0, y 1, eq_ix2 y⟩
  rw [next_apply, scratch_read1, acc_read1]
  refine congrArg (part 0 x0 x1 x2 (ix2 p q) + ·) ?_
  unfold part
  exact Finset.sum_congr rfl fun j _ => congrArg (· * _) (ld_x0 arg1 harg1 x0 1 _ _ rfl (by decide) p j)

/-- After the third chunk: the first three. -/
theorem acc_read3 :
    kernelRun0_A.sl.v669 (F := Ideal) c arg1 harg1 arg2 harg2 arg3 harg3 arg5 arg6 x0 x1 x2
      = fun y => (part 0 x0 x1 x2 y + part 1 x0 x1 x2 y) + part 2 x0 x1 x2 y := by
  refine (readCov_whole _ _ hz _).trans ?_
  refine (View.canon_cons_unit_zero hz _ _ _).trans ?_
  funext y
  obtain ⟨p, q, rfl⟩ : ∃ (p : Fin 32) (q : Fin 512), y = ix2 p q := ⟨y 0, y 1, eq_ix2 y⟩
  rw [pay67_eq, next_apply, scratch_read2, acc_read2]
  refine congrArg ((part 0 x0 x1 x2 (ix2 p q) + part 1 x0 x1 x2 (ix2 p q)) + ·) ?_
  unfold part
  exact Finset.sum_congr rfl fun j _ => congrArg (· * _) (ld_x0 arg1 harg1 x0 2 _ _ rfl (by decide) p j)

/-- After the fourth chunk, what the body copies to its output block: all four, accumulated first to last. -/
theorem acc_read4 :
    kernelRun0_A.sl.v674 (F := Ideal) c arg1 harg1 arg2 harg2 arg3 harg3 arg5 arg6 x0 x1 x2 = body x0 x1 x2 := by
  refine (readCov_whole _ _ hz _).trans ?_
  refine (View.canon_cons_unit_zero hz _ _ _).trans ?_
  funext y
  obtain ⟨p, q, rfl⟩ : ∃ (p : Fin 32) (q : Fin 512), y = ix2 p q := ⟨y 0, y 1, eq_ix2 y⟩
  rw [pay2_eq, next_apply, scratch_read3, acc_read3]
  unfold body
  refine congrArg (((part 0 x0 x1 x2 (ix2 p q) + part 1 x0 x1 x2 (ix2 p q)) + part 2 x0 x1 x2 (ix2 p q)) + ·) ?_
  unfold part
  exact Finset.sum_congr rfl fun j _ => congrArg (· * _) (ld_x0 arg1 harg1 x0 3 _ _ rfl (by decide) p j)

/-! ## The output block -/

/-- What one grid step leaves in its output block, whatever staging buffers it runs on: `body` of the step's input
    blocks. -/
theorem out_eq (i : grid0.Coords) (arg4 : Memref sig .tc .vmem S32x512 .f32) (harg4 : arg4.IsWhole)
    (harg5 : arg5.IsWhole) (harg6 : arg6.IsWhole) :
    out0_A_3 (F := Ideal) c i arg1 harg1 arg2 harg2 arg3 harg3 arg4 harg4 arg5 harg5 arg6 harg6 x0 x1 x2 = body x0 x1 x2 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  rw [View.canon_unit_zero hz]
  exact acc_read4 c arg1 harg1 arg2 harg2 arg3 harg3 arg5 arg6 x0 x1 x2

end Cert.KernelIdeal.Body

end
-- ==== Proof.Chunks.lean ====
/-
  Sums over a contraction axis cut into consecutive chunks.

  The kernel contracts the 8192-long axis in four chunks of 2048, adding each chunk's partial product to an
  accumulator, while the reference contracts the whole axis at once. In a commutative additive monoid the two are the
  same number: no cancellation or distributivity is used, so the statement holds on the extended reals with no
  finiteness assumption.
-/
import Mathlib.Algebra.BigOperators.Fin
import Mathlib.Algebra.BigOperators.Group.Finset.Basic

namespace Cert.Chunks

open Finset

variable {M : Type*} [AddCommMonoid M]

/-- A sum over `Fin (n + n + n + n)`, read as four consecutive chunks of length `n`, accumulated left to right. -/
theorem sum_four_chunks (n : ℕ) (f : Fin (n + n + n + n) → M) :
    ∑ k : Fin (n + n + n + n), f k
      = ((∑ j : Fin n, f (Fin.castAdd n (Fin.castAdd n (Fin.castAdd n j)))
          + ∑ j : Fin n, f (Fin.castAdd n (Fin.castAdd n (Fin.natAdd n j))))
          + ∑ j : Fin n, f (Fin.castAdd n (Fin.natAdd (n + n) j)))
          + ∑ j : Fin n, f (Fin.natAdd (n + n + n) j) := by
  rw [Fin.sum_univ_add, Fin.sum_univ_add, Fin.sum_univ_add]

end Cert.Chunks
-- ==== Proof.Bridge.lean ====
/-
  One block of the kernel's result is the specification on that block.

  Grid step `b` holds weight rows `b·512 … b·512 + 511`: its block of integers `tb` is those rows of the weight matrix,
  its block of scales `sb` is those rows of the scales read as an [8192, 64] matrix (row `o`, column `g` is scale
  `o·64 + g`), and its activations `xb` are all of `x`. Column `j` of chunk `c` is input column `k = c·2048 + j`, and its
  group's scale is column `c·16 + j / 128 = k / 128` of the block's scales: so chunk `c`'s partial product at `(p, q)` is
  the specification's sum restricted to the columns of the chunk, for output row `o = b·512 + q`. The four chunks are
  the whole contraction axis, and a sum in a commutative monoid may be taken chunk by chunk: no finiteness is needed.
-/
import proofs.«134464_j15058155339824_2_alg».proof.Proof.Body
import proofs.«134464_j15058155339824_2_alg».proof.Proof.Chunks
import proofs.«134464_j15058155339824_2_alg».proof.Proof.Spec

noncomputable section

namespace Cert.KernelIdeal.Body

open Cert.KernelIdeal Cert.KernelIdeal.Gen Idealize.ShloMosaic Idealize.ShloMosaic.ValueIdx Cert.Spec

/-- The 8192 columns are the four chunks' columns, in order. -/
theorem sum_chunks {M : Type*} [AddCommMonoid M] (f : Fin 8192 → M) :
    ∑ k : Fin 8192, f k
      = ((∑ j : Fin 2048, f (colT 0 j) + ∑ j : Fin 2048, f (colT 1 j)) + ∑ j : Fin 2048, f (colT 2 j))
          + ∑ j : Fin 2048, f (colT 3 j) := by
  refine (Cert.Chunks.sum_four_chunks 2048 f).trans ?_
  refine congrArg₂ (· + ·) (congrArg₂ (· + ·) (congrArg₂ (· + ·) ?_ ?_) ?_) ?_
  all_goals refine Finset.sum_congr rfl fun j _ => congrArg f (Fin.ext ?_)
  all_goals (have hj := j.isLt; simp only [colT, Fin.coe_castAdd, Fin.coe_natAdd]; omega)

section Block

variable (X : Vec Ideal S32x8192 .f32) (T : Vec Ideal S8192x8192 .i32) (Sc : Vec Ideal S524288 .f32)
  (xb : Vec Ideal S32x8192 .bf16) (tb : Vec Ideal S512x8192 .i32) (sb : Vec Ideal S512x64 .f32) (b : Nat)
  (hx : ∀ (p : Fin 32) (k : Fin 8192), xb (ix2 p k) = X (ix2 p k))
  (ht : ∀ (q : Fin 512) (k o : Fin 8192), o.val = b * 512 + q.val → tb (ix2 q k) = T (ix2 o k))
  (hs : ∀ (q : Fin 512) (g : Fin 64) (n : Fin 524288), n.val = (b * 512 + q.val) * 64 + g.val → sb (ix2 q g) = Sc (ix1 n))

include hx ht hs in
/-- Chunk `c`'s partial product is the specification's sum over the chunk's columns. -/
theorem part_eq (c : Nat) (hc : c < 4) (p : Fin 32) (q : Fin 512) (o : Fin 8192) (ho : o.val = b * 512 + q.val) :
    part c xb tb sb (ix2 p q) = ∑ j : Fin 2048, X (ix2 p (colT c j)) * weight T Sc o (colT c j) := by
  unfold part tile weight
  refine Finset.sum_congr rfl fun j _ => ?_
  show xb (ix2 p (colT c j)) * (FloatOps.sitofp (F := Ideal) .f32 (tb (ix2 q (colT c j))) * sb (ix2 q (colS c j))) = _
  rw [hx, ht q (colT c j) o ho, hs q (colS c j) (grp o (colT c j)) (by
    have hj := j.isLt
    show o.val * 64 + ((c * 2048 + j.val) % 8192) / 128 = (b * 512 + q.val) * 64 + (c * 16 + j.val / 128) % 64
    omega)]

include hx ht hs in
/-- What the grid step leaves at `(p, q)` of its block is the specification at `(p, b·512 + q)`. -/
theorem block_eq (p : Fin 32) (q : Fin 512) (o : Fin 8192) (ho : o.val = b * 512 + q.val) :
    body xb tb sb (ix2 p q) = linear X T Sc (ix2 p o) := by
  show ((part 0 xb tb sb (ix2 p q) + part 1 xb tb sb (ix2 p q)) + part 2 xb tb sb (ix2 p q)) + part 3 xb tb sb (ix2 p q)
    = ∑ k : Fin 8192, X (ix2 p k) * weight T Sc o k
  rw [part_eq X T Sc xb tb sb b hx ht hs 0 (by decide) p q o ho, part_eq X T Sc xb tb sb b hx ht hs 1 (by decide) p q o ho,
    part_eq X T Sc xb tb sb b hx ht hs 2 (by decide) p q o ho, part_eq X T Sc xb tb sb b hx ht hs 3 (by decide) p q o ho,
    sum_chunks (fun k => X (ix2 p k) * weight T Sc o k)]

end Block

end Cert.KernelIdeal.Body

end
-- ==== Proof.Final.lean ====
/-
  From blocks to the result array.

  Before the kernel runs, the host reads the scales as an [8192, 64] matrix (row-major: row `o`, column `g` is scale
  `o·64 + g`) and changes the activations' float format (the identity on the extended reals). Grid point `t` of sixteen
  stages the whole activations, rows `t·512 … t·512 + 511` of the integer weights and of the scale matrix, and writes
  back columns `t·512 … t·512 + 511` of the [32, 8192] result. What it writes back is the specification on those columns
  (`Body.out_eq`, `Body.block_eq`); the sixteen column blocks are the whole array; so the array ends holding the
  specification of the three arguments.
-/
import proofs.«134464_j15058155339824_2_alg».proof.Proof.Scratch
import proofs.«134464_j15058155339824_2_alg».proof.Proof.Bridge
import proofs.«134464_j15058155339824_2_alg».proof.Proof.Gen.KernelIdeal.Value
import Idealize.ShloMosaic.Lib.StableHlo.Run

noncomputable section

namespace Cert.KernelIdeal.RunValue

open Cert.KernelIdeal Cert.KernelIdeal.Gen Cert.KernelIdeal.Body Idealize.ShloMosaic Idealize.ShloMosaic.TcCoe
open Idealize.SL.Sem Idealize.ShloMosaic.ValueIdx Cert.Spec
open Idealize.ShloMosaic.Pipeline (Dat)

variable (m : (ℓ : Loc nD τ sig) → Buf (Elt Ideal) ℓ) (ρ : Dev nD → PrngReg)

/-- The result array as one function of the argument arrays. -/
abbrev result (c : Dev nD) : Buf (Elt Ideal) ((c : Thread nD τ).loc main_v2) :=
  linear (m ((c : Thread nD τ).loc main_arg0)) (m ((c : Thread nD τ).loc main_arg1)) (m ((c : Thread nD τ).loc main_arg2))

/-! ## What the region finds -/

/-- The scales as the region finds them: the argument read as an [8192, 64] matrix. -/
theorem V_scales (c : Dev nD) :
    (V m c main_v0 : S8192x64.Idx → Elt Ideal .f32)
      = shapeCast S8192x64 (m ((c : Thread nD τ).loc main_arg2)) shapeCasts_S524288_S8192x64 := by
  dsimp only [Gen.V, Gen.hostOps0]; after_results <;> rfl

/-- The activations as the region finds them: the argument in another float format. -/
theorem V_acts (c : Dev nD) :
    (V m c main_v1 : S32x8192.Idx → Elt Ideal .bf16)
      = (truncf (F := Ideal) .bf16 (m ((c : Thread nD τ).loc main_arg0) : FVec Ideal S32x8192 .f32) bitsLt_bf16_f32 :
          S32x8192.Idx → Elt Ideal .bf16) := by
  dsimp only [Gen.V, Gen.hostOps0]; after_results <;> rfl

/-- The windows' block indices at point `t`: the activations' window does not move, the integers' and the scales' move
    down the rows, the result's along the columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The activations' block is the activations. -/
theorem blk_acts (c : Dev nD) (t : Fin cfg0.N) (p : Fin 32) (k : Fin 8192) :
    iblk m c 0 t (ix2 p k) = m ((c : Thread nD τ).loc main_arg0) (ix2 p k) := by
  obtain ⟨e0, e1, -⟩ := idx_facts t
  show V m c main_v1 (((cfg0.win 0).blk t).view.emb (ix2 p k)) = _
  rw [V_acts]
  show m ((c : Thread nD τ).loc main_arg0) (((cfg0.win 0).blk t).view.emb (ix2 p k)) = _
  refine congrArg _ (funext fun a => Fin.ext ?_)
  match a with
  | ⟨0, _⟩ => show win0_0.index t (0 : Fin 2) * 32 + 1 * p.val = p.val; omega
  | ⟨1, _⟩ => show win0_0.index t (1 : Fin 2) * 8192 + 1 * k.val = k.val; omega

/-- The integers' block is rows `t·512 …` of the weights. -/
theorem blk_ints (c : Dev nD) (t : Fin cfg0.N) (q : Fin 512) (k o : Fin 8192) (ho : o.val = t.val * 512 + q.val) :
    iblk m c 1 t (ix2 q k) = m ((c : Thread nD τ).loc main_arg1) (ix2 o k) := by
  obtain ⟨-, -, e2, e3, -⟩ := idx_facts t
  show V m c main_arg1 (((cfg0.win 1).blk t).view.emb (ix2 q k)) = _
  rw [V_main_arg1]
  refine congrArg _ (funext fun a => Fin.ext ?_)
  match a with
  | ⟨0, _⟩ => show win0_1.index t (0 : Fin 2) * 512 + 1 * q.val = o.val; omega
  | ⟨1, _⟩ => show win0_1.index t (1 : Fin 2) * 8192 + 1 * k.val = k.val; omega

/-- The scales' block is rows `t·512 …` of the scale matrix: entry `(q, g)` is scale `(t·512 + q)·64 + g`. -/
theorem blk_scales (c : Dev nD) (t : Fin cfg0.N) (q : Fin 512) (g : Fin 64) (n : Fin 524288)
    (hn : n.val = (t.val * 512 + q.val) * 64 + g.val) :
    iblk m c 2 t (ix2 q g) = m ((c : Thread nD τ).loc main_arg2) (ix1 n) := by
  obtain ⟨-, -, -, -, e4, e5, -⟩ := idx_facts t
  show V m c main_v0 (((cfg0.win 2).blk t).view.emb (ix2 q g)) = _
  rw [V_scales]
  refine shapeCast_apply _ _ _ (ix1 n) ?_
  rw [Shape.rowMajor_val_one, Shape.rowMajor_val_two]
  show n.val = (win0_2.index t (0 : Fin 2) * 512 + 1 * q.val) * 64 + (win0_2.index t (1 : Fin 2) * 64 + 1 * g.val)
  omega

/-! ## What each point writes back, and the array -/

/-- Point `t` writes back block `t` of the specification. -/
theorem flushed_eq (c : Dev nD) (t : Fin cfg0.N) :
    (dats m 0 c).flushed 3 t = ((cfg0.win 3).blk t).view.read (Elt Ideal) (result m c) := by
  rw [Value.flushed3_A, out_eq]
  obtain ⟨-, -, -, -, -, -, e6, e7⟩ := idx_facts t
  have hN : cfg0.N = 16 := N_0
  have ht := t.isLt
  funext j
  obtain ⟨p, q, rfl⟩ : ∃ (p : Fin 32) (q : Fin 512), j = ix2 p q := ⟨j 0, j 1, eq_ix2 j⟩
  show body (iblk m c 0 t) (iblk m c 1 t) (iblk m c 2 t) (ix2 p q) = result m c (((cfg0.win 3).blk t).view.emb (ix2 p q))
  have hq := q.isLt
  have hE : ((cfg0.win 3).blk t).view.emb (ix2 p q) = ix2 p (⟨t.val * 512 + q.val, by omega⟩ : Fin 8192) :=
    funext fun a => Fin.ext (by
      match a with
      | ⟨0, _⟩ => show win0_3.index t (0 : Fin 2) * 32 + 1 * p.val = p.val; omega
      | ⟨1, _⟩ => show win0_3.index t (1 : Fin 2) * 512 + 1 * q.val = t.val * 512 + q.val; omega)
  rw [hE]
  exact block_eq _ _ _ _ _ _ t.val (blk_acts m c t) (blk_ints m c t) (blk_scales m c t) p q _ rfl

/-- An index of the array is in point `t`'s block iff each coordinate is in the block's range on its axis. -/
theorem mem_blk (t : Fin cfg0.N) (i : S32x8192.Idx) :
    i ∈ ((cfg0.win 3).blk t).view.set ↔ ∀ a : Fin 2, win0_3.index t a * S32x512.size a ≤ (i a).val
      ∧ (i a).val < win0_3.index t a * S32x512.size a + S32x512.size a := by
  show i ∈ ((View.whole main_v2).slice (win0_3.rect t)).set ↔ _
  rw [View.set_slice_whole, Rect.mem_set_unit]
  exact Iff.rfl

/-- The array after the run is the specification: column `o` is in the block of point `o / 512`. -/
theorem final (c : Dev nD) : (dats m 0 c).arrAt 3 cfg0.N = result m c :=
  (dats m 0 c).arrAt_eq_of_cover 3 (result m c) (fun t _ => flushed_eq m c t) fun i => by
    have hN : cfg0.N = 16 := N_0
    have h0 : (i 0).val < 32 := idx2_lt0 i
    have h1 : (i 1).val < 8192 := idx2_lt1 i
    obtain ⟨t, ht⟩ : ∃ t : Fin cfg0.N, t.val = (i 1).val / 512 := ⟨⟨(i 1).val / 512, by omega⟩, rfl⟩
    obtain ⟨-, -, -, -, -, -, e6, e7⟩ := idx_facts t
    refine ⟨t, flush0_3 t, ?_⟩
    rw [mem_blk]
    intro a
    match a with
    | ⟨0, _⟩ =>
      show win0_3.index t (0 : Fin 2) * 32 ≤ (i 0).val ∧ (i 0).val < win0_3.index t (0 : Fin 2) * 32 + 32
      omega
    | ⟨1, _⟩ =>
      show win0_3.index t (1 : Fin 2) * 512 ≤ (i 1).val ∧ (i 1).val < win0_3.index t (1 : Fin 2) * 512 + 512
      omega

/-- The kernel's run: the result array ends at the specification of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RunValue

end
-- ==== Proof.lean ====
/-
  A linear layer with group-quantized weights: the kernel against its reference, on the extended reals.

  Both programs compute, for activations `x` [32, 8192], integer weights `t` [8192, 8192] and one scale for every 128
  consecutive weights, `out(r, o) = Σ_k x(r, k) · (float(t(o, k)) · s(o·64 + k / 128))` (`Spec.linear`).

  The reference builds the whole dequantized weight matrix on the host and contracts once (`RefSpec`). The kernel
  walks sixteen blocks of 512 output rows; in each it dequantizes four chunks of 2048 input columns into a scratch
  tile, sixteen slabs of 128 columns at a time, and accumulates the four partial products (`Body`, `Scratch`). The
  two agree because a chunk's columns and scales are the specification's (`Bridge.part_eq`) and a sum over the 8192
  columns may be taken chunk by chunk in any commutative monoid (`Chunks`, `Bridge.sum_chunks`): nothing is cancelled or
  distributed, so the precondition that the float inputs are finite is never opened. The sixteen blocks' columns are
  the whole result (`Final`).

  The frames of the two kernel programs are the generated ones; the reference's frame is its generated run with the
  result dropped; the idealization rewrote no operation.
-/
import proofs.«134464_j15058155339824_2_alg».proof.Defs
import proofs.«134464_j15058155339824_2_alg».proof.Proof.Gen.Kernel
import proofs.«134464_j15058155339824_2_alg».proof.Proof.Gen.Kernel.Skeleton
import proofs.«134464_j15058155339824_2_alg».proof.Proof.Gen.Kernel.Launch
import proofs.«134464_j15058155339824_2_alg».proof.Proof.Gen.Kernel.Points
import proofs.«134464_j15058155339824_2_alg».proof.Proof.Gen.Kernel.Frame
import proofs.«134464_j15058155339824_2_alg».proof.Proof.Gen.KernelIdeal
import proofs.«134464_j15058155339824_2_alg».proof.Proof.Gen.KernelIdeal.Skeleton
import proofs.«134464_j15058155339824_2_alg».proof.Proof.Gen.KernelIdeal.Launch
import proofs.«134464_j15058155339824_2_alg».proof.Proof.Gen.KernelIdeal.Points
import proofs.«134464_j15058155339824_2_alg».proof.Proof.Gen.KernelIdeal.Frame
import proofs.«134464_j15058155339824_2_alg».proof.Proof.Gen.ReferenceIdeal
import proofs.«134464_j15058155339824_2_alg».proof.Proof.Gen.Pre_finite_inputs
import proofs.«134464_j15058155339824_2_alg».proof.Proof.Gen.KernelIdeal.Value
import proofs.«134464_j15058155339824_2_alg».proof.Proof.Gen.ReferenceIdeal.Run
import proofs.«134464_j15058155339824_2_alg».proof.Proof.Gen.ReferenceIdeal.Read
import proofs.«134464_j15058155339824_2_alg».proof.Proof.RefSpec
import proofs.«134464_j15058155339824_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the three arguments, the kernel's result array and the reference's both end at the
    specification of those arguments. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
